-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
import proofs.«126078_j67912022884450_1_alg».proof.Proof.Gen.KernelIdeal.Frame

/-!
# The kernel program's run, with its result array named

The program is four pipelined kernel launches among stretches of host operations. Its run is the library's run of a
list of segments (host stretches and kernel regions) from the launch memory; at the end every unscoped buffer of the
TensorCore holds the last boundary's contents, the fold `Gen.W9` of the segments over the launch memory.
Here that final read-off is stated for the RESULT buffer as well as for the six arguments: the result array
ends at `Gen.W9 m ρ c` of its own reference, and the arguments end as launched.
-/

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer then holds the
    last boundary's contents at its reference, and each argument array is as launched: the last thread state of the
    chain of segments holds EVERY unscoped buffer at `W9`, the result's among them, and the final memory is read
    against it buffer by buffer. -/
theorem run_named : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.GcnRun

end
-- ==== Proof.Stages.lean ====
import proofs.«126078_j67912022884450_1_alg».proof.Proof.Gen.ReferenceIdeal

/-!
# The host side of a graph-convolution layer, as functions of arrays

Both programs compute, from the `2 × 800000` edge list, the source and destination node of each of the 850000 edges
(the given edges followed by one self loop per node), each node's degree (the number of edges that end at it), the
symmetric normalisation `d(src)^(-1/2) · d(dst)^(-1/2)` of each edge, and then, per layer, the aggregate: every node
receives the sum, over the edges that end at it, of the source node's feature row times the edge's normalisation.
These are the same host operations in both programs; they are named here once, for any float values, so that both
sides can be stated over the same terms. The dense steps between them are in `Spec.lean`.
-/

noncomputable section

namespace Cert.Gcn

open Cert.ReferenceIdeal Cert.ReferenceIdeal.Gen Idealize.ShloMosaic

variable {F : FTy → Type} [FloatOps F]

/-- The source node of every edge: row 0 of the edge list, then the nodes themselves (the self loops). -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination node of every edge: row 1 of the edge list, then the nodes themselves. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number read the way an array index is: a negative one counts from the end (50000 is added to it). -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- Each node's degree: one is added at the destination of every edge. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- `d^(-1/2)` of the degree clamped below, where the degree is positive, and zero elsewhere. -/
def degInvSqrt (dst : (⟨S850000, .i32⟩ : BufTy).Contents (Elt F)) : (⟨S50000, .f32⟩ : BufTy).Contents (Elt F) :=
  select (cmpf (F := F) .ogt (degree dst) (broadcastInDim S50000 ![] bcast_S_S50000 (constant S_ .f32 0x00000000#32))) (Host.rsqrt (maximumf (degree dst) (broadcastInDim S50000 ![] bcast_S_S50000 (constant S_ .f32 0x2B8CBCCC#32)))) (broadcastInDim S50000 ![] bcast_S_S50000 (id (constant S_ .f32 0x00000000#32)))

/-- The normalisation of every edge: `d(src)^(-1/2) · d(dst)^(-1/2)`. -/
def edgeNorm (src dst : (⟨S850000, .i32⟩ : BufTy).Contents (Elt F)) : (⟨S850000, .f32⟩ : BufTy).Contents (Elt F) :=
  mulf (Host.gather gather_S50000_S850000x1_S850000_n_0_n_n_0_1_1 (degInvSqrt dst) (broadcastInDim S850000x1 ![0] bcast_S850000_S850000x1_0 (wrapIdx src))) (Host.gather gather_S50000_S850000x1_S850000_n_0_n_n_0_1_1 (degInvSqrt dst) (broadcastInDim S850000x1 ![0] bcast_S850000_S850000x1_0 (wrapIdx dst)))

/-- The first layer's aggregate (128 features): node `v` receives the sum over the edges ending at `v` of the source
    node's row of `h` times the edge's normalisation. -/
def aggregate128 (h : (⟨S50000x128, .f32⟩ : BufTy).Contents (Elt F)) (src dst : (⟨S850000, .i32⟩ : BufTy).Contents (Elt F))
    (nrm : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrapIdx src))) (broadcastInDim S850000x128 ![0, 1] bcast_S850000x1_S850000x128_0_1 (broadcastInDim S850000x1 ![0] bcast_S850000_S850000x1_0 nrm)))

/-- The second layer's aggregate (64 features), the same sum over the same edges. -/
def aggregate64 (h : (⟨S50000x64, .f32⟩ : BufTy).Contents (Elt F)) (src dst : (⟨S850000, .i32⟩ : BufTy).Contents (Elt F))
    (nrm : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (broadcastInDim S850000x1 ![0] bcast_S850000_S850000x1_0 (wrapIdx src))) (broadcastInDim S850000x64 ![0, 1] bcast_S850000x1_S850000x64_0_1 (broadcastInDim S850000x1 ![0] bcast_S850000_S850000x1_0 nrm)))

/-- The reference's first layer: the whole product, the aggregate, the bias row added to every row, the maximum with zero. -/
def refLayer128 (h : (⟨S50000x128, .f32⟩ : BufTy).Contents (Elt F)) (w : (⟨S128x128, .f32⟩ : BufTy).Contents (Elt F))
    (b : (⟨S128, .f32⟩ : BufTy).Contents (Elt F)) (src dst : (⟨S850000, .i32⟩ : BufTy).Contents (Elt F))
    (nrm : (⟨S850000, .f32⟩ : BufTy).Contents (Elt F)) : (⟨S50000x128, .f32⟩ : BufTy).Contents (Elt F) :=
  maximumf (addf (aggregate128 (Host.dotGeneral dot_S50000x128_S128x128_S50000x128_1_0_0_1_n_n none h w) src dst nrm) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The reference's second layer, from 128 features to 64. -/
def refLayer64 (h : (⟨S50000x128, .f32⟩ : BufTy).Contents (Elt F)) (w : (⟨S128x64, .f32⟩ : BufTy).Contents (Elt F))
    (b : (⟨S64, .f32⟩ : BufTy).Contents (Elt F)) (src dst : (⟨S850000, .i32⟩ : BufTy).Contents (Elt F))
    (nrm : (⟨S850000, .f32⟩ : BufTy).Contents (Elt F)) : (⟨S50000x64, .f32⟩ : BufTy).Contents (Elt F) :=
  maximumf (addf (aggregate64 (Host.dotGeneral dot_S50000x128_S128x64_S50000x64_1_0_0_1_n_n none h w) src dst nrm) (broadcastInDim S50000x64 ![0, 1] bcast_S1x64_S50000x64_0_1 (broadcastInDim S1x64 ![1] bcast_S64_S1x64_1 b))) (broadcastInDim S50000x64 ![] bcast_S_S50000x64 (constant S_ .f32 0x00000000#32))

end Cert.Gcn

end
-- ==== Proof.HostStages.lean ====
import proofs.«126078_j67912022884450_1_alg».proof.Proof.Gen.KernelIdeal.Frame
import proofs.«126078_j67912022884450_1_alg».proof.Proof.Stages
import Idealize.ShloMosaic.Lib.StableHlo.Run

/-!
# What the host stretches of the kernel program compute

Between its four kernel launches the kernel program runs stretches of host operations. The stretch before the first
launch turns the edge list into the source and destination node of every edge and the edges' normalisation; the stretch
after the first product gathers the product's rows along the edges, scales them, and scatter-adds them into the first
layer's aggregate, and stores the first bias as a one-row matrix; the stretch after the second product does the same
for the second layer. Each is read here as one of the functions of `Stages.lean` applied to the arrays the stretch
reads, and the arrays a stretch does not write are followed, unchanged, from where they are made to where they are read.
-/

set_option maxRecDepth 16384

noncomputable section

namespace Cert.KernelIdeal.GcnHost

open Cert.KernelIdeal Cert.KernelIdeal.Gen Idealize.ShloMosaic Idealize.ShloMosaic.TcCoe Idealize.SL.Sem

variable {F : FTy → Type} [FloatOps F]

/-! ## The stretch between the first product and the first bias step

Seventeen operations: the source nodes read as array indices, the product's rows gathered at them, the normalisation
spread along each row, the product of the two, and the scatter-add of that into an array of zeros at the destination
nodes; last, the first bias stored as a one-row matrix. Every array the stretch writes is a new one, so the node
lists, the normalisation, and the later layer's weights and bias pass through unchanged. -/

/-- The stretch writes the first layer's aggregate: the rows of the product gathered at each edge's source node,
    each scaled by the edge's normalisation, summed into the row of the edge's destination node. -/
theorem ops1_agg (W : Valuation τ sig (Elt F)) :
    StableHlo.after hostOps1 W (Proc.devRef .tc main_v45)
      = Cert.Gcn.aggregate128 (W (Proc.devRef .tc main_v32)) (W (Proc.devRef .tc main_v5)) (W (Proc.devRef .tc main_v6))
          (W (Proc.devRef .tc main_v31)) := by
  dsimp only [hostOps1]
  after_results_simp
  rfl

/-- The stretch stores the first bias, a vector of 128 entries, as a `1 × 128` matrix with the same entries in order. -/
theorem ops1_bias (W : Valuation τ sig (Elt F)) :
    StableHlo.after hostOps1 W (Proc.devRef .tc main_v46)
      = shapeCast _ (W (Proc.devRef .tc main_arg3)) shapeCasts_S128_S1x128 := by
  dsimp only [hostOps1]
  after_results_simp
  rfl

/-- The stretch does not write the list of source nodes. -/
theorem ops1_keep_v5 (W : Valuation τ sig (Elt F)) :
    StableHlo.after hostOps1 W (Proc.devRef .tc main_v5) = W (Proc.devRef .tc main_v5) := by
  dsimp only [hostOps1]
  after_results_simp

/-- The stretch does not write the list of destination nodes. -/
theorem ops1_keep_v6 (W : Valuation τ sig (Elt F)) :
    StableHlo.after hostOps1 W (Proc.devRef .tc main_v6) = W (Proc.devRef .tc main_v6) := by
  dsimp only [hostOps1]
  after_results_simp

/-- The stretch does not write the edges' normalisation. -/
theorem ops1_keep_v31 (W : Valuation τ sig (Elt F)) :
    StableHlo.after hostOps1 W (Proc.devRef .tc main_v31) = W (Proc.devRef .tc main_v31) := by
  dsimp only [hostOps1]
  after_results_simp

/-- The stretch does not write the second layer's weights. -/
theorem ops1_keep_arg4 (W : Valuation τ sig (Elt F)) :
    StableHlo.after hostOps1 W (Proc.devRef .tc main_arg4) = W (Proc.devRef .tc main_arg4) := by
  dsimp only [hostOps1]
  after_results_simp

/-- The stretch does not write the second layer's bias. -/
theorem ops1_keep_arg5 (W : Valuation τ sig (Elt F)) :
    StableHlo.after hostOps1 W (Proc.devRef .tc main_arg5) = W (Proc.devRef .tc main_arg5) := by
  dsimp only [hostOps1]
  after_results_simp

/-! ## The stretch between the second product and the second bias step

The same seventeen operations at 64 features: gather at the source nodes, scale, scatter-add at the destination nodes,
and the second bias stored as a one-row matrix. -/

/-- The stretch writes the second layer's aggregate: the rows of the second product gathered at each edge's source
    node, each scaled by the edge's normalisation, summed into the row of the edge's destination node. -/
theorem ops3_agg (W : Valuation τ sig (Elt F)) :
    StableHlo.after hostOps3 W (Proc.devRef .tc main_v61)
      = Cert.Gcn.aggregate64 (W (Proc.devRef .tc main_v48)) (W (Proc.devRef .tc main_v5)) (W (Proc.devRef .tc main_v6))
          (W (Proc.devRef .tc main_v31)) := by
  dsimp only [hostOps3]
  after_results_simp
  rfl

/-- The stretch stores the second bias, a vector of 64 entries, as a `1 × 64` matrix with the same entries in order. -/
theorem ops3_bias (W : Valuation τ sig (Elt F)) :
    StableHlo.after hostOps3 W (Proc.devRef .tc main_v62)
      = shapeCast _ (W (Proc.devRef .tc main_arg5)) shapeCasts_S64_S1x64 := by
  dsimp only [hostOps3]
  after_results_simp
  rfl

/-! ## The three stretches before the first launch

Forty-three operations in all. The first stretch cuts the two rows out of the edge list, appends the node numbers
`0, …, 49999` to each (the self loops), counts how many edges end at each node by scatter-adding ones, and takes the
reciprocal square root of the count clamped below; the second keeps that where the count is positive and puts zero
elsewhere; the third reads the source and destination nodes as array indices, gathers the two factors of every edge,
and multiplies them. None of them writes an argument of the program. -/

variable (m : (ℓ : Loc nD τ sig) → Buf (Elt F) ℓ) (ρ : Dev nD → PrngReg) (c : Dev nD)

/-- At the first launch the list of source nodes is row 0 of the edge list followed by the node numbers. -/
theorem entry_src : W3 m ρ c (Proc.devRef .tc main_v5) = Cert.Gcn.srcIdx (m ((c.tc : Thread nD τ).loc main_arg1)) := by
  dsimp only [W3, W2, W1, hostOps0_2, hostOps0_1, hostOps0]
  after_results_simp
  rfl

/-- At the first launch the list of destination nodes is row 1 of the edge list followed by the node numbers. -/
theorem entry_dst : W3 m ρ c (Proc.devRef .tc main_v6) = Cert.Gcn.dstIdx (m ((c.tc : Thread nD τ).loc main_arg1)) := by
  dsimp only [W3, W2, W1, hostOps0_2, hostOps0_1, hostOps0]
  after_results_simp
  rfl

/-- At the first launch the normalisation of every edge is `d(src)^(-1/2) · d(dst)^(-1/2)`, the degrees counted over
    the destination nodes of those same edges. -/
theorem entry_norm : W3 m ρ c (Proc.devRef .tc main_v31)
    = Cert.Gcn.edgeNorm (Cert.Gcn.srcIdx (m ((c.tc : Thread nD τ).loc main_arg1)))
        (Cert.Gcn.dstIdx (m ((c.tc : Thread nD τ).loc main_arg1))) := by
  dsimp only [W3, W2, W1, hostOps0_2, hostOps0_1, hostOps0]
  after_results_simp
  rfl

/-- No operation before the first launch writes the node features: it enters the first launch as it was at the start. -/
theorem entry_arg0 : W3 m ρ c (Proc.devRef .tc main_arg0) = m ((c.tc : Thread nD τ).loc main_arg0) := by
  dsimp only [W3, W2, W1, hostOps0_2, hostOps0_1, hostOps0]
  after_results_simp

/-- No operation before the first launch writes the first layer's weights: it enters the first launch as it was at the start. -/
theorem entry_arg2 : W3 m ρ c (Proc.devRef .tc main_arg2) = m ((c.tc : Thread nD τ).loc main_arg2) := by
  dsimp only [W3, W2, W1, hostOps0_2, hostOps0_1, hostOps0]
  after_results_simp

/-- No operation before the first launch writes the first layer's bias: it enters the first launch as it was at the start. -/
theorem entry_arg3 : W3 m ρ c (Proc.devRef .tc main_arg3) = m ((c.tc : Thread nD τ).loc main_arg3) := by
  dsimp only [W3, W2, W1, hostOps0_2, hostOps0_1, hostOps0]
  after_results_simp

/-- No operation before the first launch writes the second layer's weights: it enters the first launch as it was at the start. -/
theorem entry_arg4 : W3 m ρ c (Proc.devRef .tc main_arg4) = m ((c.tc : Thread nD τ).loc main_arg4) := by
  dsimp only [W3, W2, W1, hostOps0_2, hostOps0_1, hostOps0]
  after_results_simp

/-- No operation before the first launch writes the second layer's bias: it enters the first launch as it was at the start. -/
theorem entry_arg5 : W3 m ρ c (Proc.devRef .tc main_arg5) = m ((c.tc : Thread nD τ).loc main_arg5) := by
  dsimp only [W3, W2, W1, hostOps0_2, hostOps0_1, hostOps0]
  after_results_simp

/-! ## The arrays carried from where they are made to where they are read

A launch changes only its own three arrays, and the stretch after the first launch writes only new arrays, so the node
lists, the normalisation and the later arguments still hold, at each later boundary, what they held at the first
launch. Each statement below gives that value outright. -/

/-- The first launch does not own the list of source nodes: after it they are as at its entry. -/
theorem carry4_v5 : W4 m ρ c (Proc.devRef .tc main_v5)
    = Cert.Gcn.srcIdx (m ((c.tc : Thread nD τ).loc main_arg1)) :=
  (W4_of_ne m ρ c main_v5 (by decide)).trans (entry_src m ρ c)

/-- The first launch does not own the list of destination nodes: after it they are as at its entry. -/
theorem carry4_v6 : W4 m ρ c (Proc.devRef .tc main_v6)
    = Cert.Gcn.dstIdx (m ((c.tc : Thread nD τ).loc main_arg1)) :=
  (W4_of_ne m ρ c main_v6 (by decide)).trans (entry_dst m ρ c)

/-- The first launch does not own the edges' normalisation: after it they are as at its entry. -/
theorem carry4_v31 : W4 m ρ c (Proc.devRef .tc main_v31)
    = Cert.Gcn.edgeNorm (Cert.Gcn.srcIdx (m ((c.tc : Thread nD τ).loc main_arg1)))
        (Cert.Gcn.dstIdx (m ((c.tc : Thread nD τ).loc main_arg1))) :=
  (W4_of_ne m ρ c main_v31 (by decide)).trans (entry_norm m ρ c)

/-- The first launch does not own the first layer's bias: after it they are as at its entry. -/
theorem carry4_arg3 : W4 m ρ c (Proc.devRef .tc main_arg3)
    = m ((c.tc : Thread nD τ).loc main_arg3) :=
  (W4_of_ne m ρ c main_arg3 (by decide)).trans (entry_arg3 m ρ c)

/-- The first launch does not own the second layer's weights: after it they are as at its entry. -/
theorem carry4_arg4 : W4 m ρ c (Proc.devRef .tc main_arg4)
    = m ((c.tc : Thread nD τ).loc main_arg4) :=
  (W4_of_ne m ρ c main_arg4 (by decide)).trans (entry_arg4 m ρ c)

/-- The first launch does not own the second layer's bias: after it they are as at its entry. -/
theorem carry4_arg5 : W4 m ρ c (Proc.devRef .tc main_arg5)
    = m ((c.tc : Thread nD τ).loc main_arg5) :=
  (W4_of_ne m ρ c main_arg5 (by decide)).trans (entry_arg5 m ρ c)

/-- Neither the stretch after the first launch nor the second launch touches the second layer's weights: the third
    launch reads them as they were at the start. -/
theorem carry6_arg4 : W6 m ρ c (Proc.devRef .tc main_arg4)
    = m ((c.tc : Thread nD τ).loc main_arg4) :=
  (W6_of_ne m ρ c main_arg4 (by decide)).trans ((ops1_keep_arg4 (W4 m ρ c)).trans (carry4_arg4 m ρ c))

/-- The stretch after the first launch and the second and third launches leave the list of source nodes alone: the stretch after
    the third launch reads the same values as the first launch did. -/
theorem carry7_v5 : W7 m ρ c (Proc.devRef .tc main_v5)
    = Cert.Gcn.srcIdx (m ((c.tc : Thread nD τ).loc main_arg1)) :=
  (W7_of_ne m ρ c main_v5 (by decide)).trans ((W6_of_ne m ρ c main_v5 (by decide)).trans
    ((ops1_keep_v5 (W4 m ρ c)).trans (carry4_v5 m ρ c)))

/-- The stretch after the first launch and the second and third launches leave the list of destination nodes alone: the stretch after
    the third launch reads the same values as the first launch did. -/
theorem carry7_v6 : W7 m ρ c (Proc.devRef .tc main_v6)
    = Cert.Gcn.dstIdx (m ((c.tc : Thread nD τ).loc main_arg1)) :=
  (W7_of_ne m ρ c main_v6 (by decide)).trans ((W6_of_ne m ρ c main_v6 (by decide)).trans
    ((ops1_keep_v6 (W4 m ρ c)).trans (carry4_v6 m ρ c)))

/-- The stretch after the first launch and the second and third launches leave the edges' normalisation alone: the stretch after
    the third launch reads the same values as the first launch did. -/
theorem carry7_v31 : W7 m ρ c (Proc.devRef .tc main_v31)
    = Cert.Gcn.edgeNorm (Cert.Gcn.srcIdx (m ((c.tc : Thread nD τ).loc main_arg1)))
        (Cert.Gcn.dstIdx (m ((c.tc : Thread nD τ).loc main_arg1))) :=
  (W7_of_ne m ρ c main_v31 (by decide)).trans ((W6_of_ne m ρ c main_v31 (by decide)).trans
    ((ops1_keep_v31 (W4 m ρ c)).trans (carry4_v31 m ρ c)))

/-- The stretch after the first launch and the second and third launches leave the second layer's bias alone: the stretch after
    the third launch reads the same values as the first launch did. -/
theorem carry7_arg5 : W7 m ρ c (Proc.devRef .tc main_arg5)
    = m ((c.tc : Thread nD τ).loc main_arg5) :=
  (W7_of_ne m ρ c main_arg5 (by decide)).trans ((W6_of_ne m ρ c main_arg5 (by decide)).trans
    ((ops1_keep_arg5 (W4 m ρ c)).trans (carry4_arg5 m ρ c)))

end Cert.KernelIdeal.GcnHost

end
-- ==== Proof.Spec.lean ====
import Idealize.ShloMosaic.PureOps.Ideal
import Idealize.ShloMosaic.Lib.ValueIdx

/-!
# The two dense steps of a graph-convolution layer, index by index

A layer of the network multiplies the node features by a weight matrix, gathers and scatters the products along
the edges, and then adds a bias row and clamps at zero. The gather and scatter are the same host operations in the
kernel program and in the reference; the two dense steps are what the kernels compute block by block and the
reference computes whole. Here they are as functions of whole arrays over the extended reals:

* `matProd x w` at `(r, c)` is `∑ a, x (r, a) · w (a, c)`;
* `biasRelu a b` at `(r, c)` is `max (a (r, c) + b (0, c)) 0`, for a bias `b` stored as a one-row matrix;
* `asRow b` stores a vector as that one-row matrix.
-/

noncomputable section

open scoped BigOperators

namespace Cert.Gcn

open Idealize.ShloMosaic Idealize.ShloMosaic.ValueIdx

/-- The product of an `n × k` matrix with a `k × p` matrix: entry `(r, c)` is the sum over `a` of `x (r, a) · w (a, c)`. -/
def matProd {n k p : Nat} (x : (⟨2, ![n, k]⟩ : Shape).Idx → EReal) (w : (⟨2, ![k, p]⟩ : Shape).Idx → EReal) :
    (⟨2, ![n, p]⟩ : Shape).Idx → EReal :=
  fun i => ∑ a : Fin k, x (ix2 (i 0) a) * w (ix2 a (i 1))

/-- A bias row added to every row of a matrix, then the maximum with zero: entry `(r, c)` is `max (a (r, c) + b (0, c)) 0`. -/
def biasRelu {n p : Nat} (a : (⟨2, ![n, p]⟩ : Shape).Idx → EReal) (b : (⟨2, ![1, p]⟩ : Shape).Idx → EReal) :
    (⟨2, ![n, p]⟩ : Shape).Idx → EReal :=
  fun i => max (a i + b (ix2 (0 : Fin 1) (i 1))) 0

/-- A vector of length `p` stored as a `1 × p` matrix: entry `(0, c)` is `b c`. -/
def asRow {p : Nat} (b : (⟨1, ![p]⟩ : Shape).Idx → EReal) : (⟨2, ![1, p]⟩ : Shape).Idx → EReal :=
  fun y => b (ix1 (y 1))

end Cert.Gcn

end
-- ==== Proof.MatmulFirst.lean ====
import proofs.«126078_j67912022884450_1_alg».proof.Proof.Gen.KernelIdeal.Frame
import proofs.«126078_j67912022884450_1_alg».proof.Proof.Spec
import Idealize.ShloMosaic.Lib.Pipeline.Value
import Idealize.ShloMosaic.Lib.ValueIdx
import Idealize.ShloMosaic.PureOps.Ideal.Laws

/-!
# The first dense step on the TensorCore: the node features times the first weight matrix

The first kernel region multiplies the `50000 × 128` feature array by the `128 × 128` weight matrix in ten row blocks
of 5000: at grid point `t` it loads rows `5000 t … 5000 t + 4999` and the whole weight matrix, multiplies them (on the
extended reals the rounding of the operands to bf16 is the identity, and the accumulator starts at zero), and writes the
`5000 × 128` product back as block `t` of the output. Block by block this is the whole product `matProd` of the two
arrays the region finds: every output row lies in exactly the block of its grid point, so after the last point the output
array IS the whole product. The statement is for any contents `V` of the buffers at the region's entry.
-/

set_option maxRecDepth 16384

noncomputable section

open scoped BigOperators

namespace Cert.KernelIdeal.MatmulFirst

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The left operand's index keeps the output's row. -/
theorem lhs_row (i : S5000x128.Idx) (k : (dot_S5000x128_S128x128_S5000x128_1_0_0_1_n_n).contr.Idx) :
    ((dot_S5000x128_S128x128_S5000x128_1_0_0_1_n_n).lhsIdx i k 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

/-- The right operand's index keeps the output's column. -/
theorem rhs_col (i : S5000x128.Idx) (k : (dot_S5000x128_S128x128_S5000x128_1_0_0_1_n_n).contr.Idx) :
    ((dot_S5000x128_S128x128_S5000x128_1_0_0_1_n_n).rhsIdx i k 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- One entry of a block's product: the sum over the 128 contraction coordinates (rounding the operands to bf16 is
    the identity on the extended reals, and the accumulator starts at zero). -/
theorem pay_apply (x0 : Vec Ideal S5000x128 .f32) (x1 : Vec Ideal S128x128 .f32) (p : Fin 5000) (q : Fin 128) :
    k0_pay1 x0 x1 (ix2 p q) = ∑ a : Fin 128, x0 (ix2 p a) * x1 (ix2 a q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun a _ => ?_
  have ha := contrEquiv1_symm_val dot_S5000x128_S128x128_S5000x128_1_0_0_1_n_n 128 rfl rfl a
  have el : (dot_S5000x128_S128x128_S5000x128_1_0_0_1_n_n).lhsIdx (ix2 p q) ((contrEquiv1 dot_S5000x128_S128x128_S5000x128_1_0_0_1_n_n 128 rfl rfl).symm a) = ix2 p a :=
    funext fun d => Fin.ext (by
      match d with
      | ⟨0, _⟩ => exact lhs_row _ _
      | ⟨1, _⟩ => exact ((dot_S5000x128_S128x128_S5000x128_1_0_0_1_n_n).lhsIdx_val_of_single rfl _ _).trans ha)
  have er : (dot_S5000x128_S128x128_S5000x128_1_0_0_1_n_n).rhsIdx (ix2 p q) ((contrEquiv1 dot_S5000x128_S128x128_S5000x128_1_0_0_1_n_n 128 rfl rfl).symm a) = ix2 a q :=
    funext fun d => Fin.ext (by
      match d with
      | ⟨0, _⟩ => exact ((dot_S5000x128_S128x128_S5000x128_1_0_0_1_n_n).rhsIdx_val_of_single rfl _ _).trans ha
      | ⟨1, _⟩ => exact rhs_col _ _)
  show x0 _ * x1 _ = _
  rw [el, er]

/-- The printed index maps over the ten grid points: the input rows and the output rows move together, block `t` at
    point `t`; the weight matrix and every column axis stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of a block's product is the entry of the whole product at the array index `i` the block entry `j`
    lies at, once the block of rows holds the array's rows there and the weight block is the weight matrix. -/
theorem block_entry (x0 : Vec Ideal S5000x128 .f32) (x1 : Vec Ideal S128x128 .f32)
    (X : S50000x128.Idx → EReal) (Wt : S128x128.Idx → EReal) (j : S5000x128.Idx) (i : S50000x128.Idx)
    (h0 : ∀ a : Fin 128, x0 (ix2 (j 0) a) = X (ix2 (i 0) a))
    (h1 : ∀ a : Fin 128, x1 (ix2 a (j 1)) = Wt (ix2 a (i 1))) :
    k0_pay1 x0 x1 j = Cert.Gcn.matProd X Wt i := by
  refine (congrArg (k0_pay1 x0 x1) (eq_ix2 j)).trans ((pay_apply x0 x1 (j 0) (j 1)).trans ?_)
  unfold Cert.Gcn.matProd
  exact Finset.sum_congr rfl fun a _ => by rw [h0 a, h1 a]

variable (V : (c : Dev nD) → (b : Ref sig .tc) → Buf (Elt Ideal) ((c : Thread nD τ).loc b))

/-- What point `t` writes back is block `t` of the whole product of the two arrays the region finds. -/
theorem flushed_eq (c : Dev nD) (t : Fin cfg0.N) :
    (dat0 (F := Ideal) V c).flushed 2 t = ((cfg0.win 2).blk t).view.read (Elt Ideal) (Cert.Gcn.matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  refine funext fun (j : S5000x128.Idx) => ?_
  show k0_pay1 (iblk0 V c 0 t) (iblk0 V c 1 t) j = Cert.Gcn.matProd (V c main_arg0) (V c main_arg2) (((cfg0.win 2).blk t).view.emb j)
  refine block_entry _ _ _ _ j _ (fun a => ?_) (fun a => ?_)
  · show V c main_arg0 (((cfg0.win 0).blk t).view.emb (ix2 (j 0) a)) = V c main_arg0 (ix2 ((((cfg0.win 2).blk t).view.emb j) 0) a)
    refine congrArg (V c main_arg0) (funext fun d => Fin.ext ?_)
    match d with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * a.val = a.val; omega
  · show V c main_arg2 (((cfg0.win 1).blk t).view.emb (ix2 a (j 1))) = V c main_arg2 (ix2 a ((((cfg0.win 2).blk t).view.emb j) 1))
    refine congrArg (V c main_arg2) (funext fun d => Fin.ext ?_)
    match d with
    | ⟨0, _⟩ => show win0_1.index t (0 : Fin 2) * 128 + 1 * a.val = a.val; omega
    | ⟨1, _⟩ => show win0_1.index t (1 : Fin 2) * 128 + 1 * (j 1).val = win0_2.index t (1 : Fin 2) * 128 + 1 * (j 1).val; omega

/-- An index of the array lies in point `t`'s block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row of the array lies in the block of some grid point: row `r` in that of point `r / 5000`. -/
theorem cover (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  have ht : (i 0).val / 5000 < cfg0.N := by rw [hN]; omega
  refine ⟨⟨(i 0).val / 5000, ht⟩, flush0_2 _, ?_⟩
  rw [mem_blk]
  obtain ⟨e0, e1, e2, e3, e4, e5⟩ := idx_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- So the region leaves its output array at the whole product of the two arrays it finds. -/
theorem value (c : Dev nD) : (dat0 (F := Ideal) V c).arrAt 2 cfg0.N = Cert.Gcn.matProd (V c main_arg0) (V c main_arg2) :=
  (dat0 V c).arrAt_eq_of_cover 2 _ (fun t _ => flushed_eq V c t) cover

end Cert.KernelIdeal.MatmulFirst

end
-- ==== Proof.MatmulSecond.lean ====
import proofs.«126078_j67912022884450_1_alg».proof.Proof.Gen.KernelIdeal.Frame
import proofs.«126078_j67912022884450_1_alg».proof.Proof.Spec
import Idealize.ShloMosaic.Lib.Pipeline.Value
import Idealize.ShloMosaic.Lib.ValueIdx
import Idealize.ShloMosaic.PureOps.Ideal.Laws

/-!
# The second dense step on the TensorCore: the hidden features times the second weight matrix

The third kernel region multiplies the `50000 × 128` hidden array by the `128 × 64` weight matrix in ten row blocks of
5000, exactly as the first region does with the first weight matrix: at grid point `t` rows `5000 t … 5000 t + 4999`
times the whole weight matrix, written back as block `t` of the `50000 × 64` output. Block by block this is the whole
product `matProd` of the two arrays the region finds, for any contents `V` of the buffers at the region's entry.
-/

set_option maxRecDepth 16384

noncomputable section

open scoped BigOperators

namespace Cert.KernelIdeal.MatmulSecond

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The left operand's index keeps the output's row. -/
theorem lhs_row (i : S5000x64.Idx) (k : (dot_S5000x128_S128x64_S5000x64_1_0_0_1_n_n).contr.Idx) :
    ((dot_S5000x128_S128x64_S5000x64_1_0_0_1_n_n).lhsIdx i k 0).val = (i 0).val := by
  unfold DotDims.lhsIdx
  rw [dif_neg (show ¬(0 : Fin S5000x128.rank) ∈ (dot_S5000x128_S128x64_S5000x64_1_0_0_1_n_n).lhsBatch by decide),
    dif_pos (show (0 : Fin S5000x128.rank) ∈ (dot_S5000x128_S128x64_S5000x64_1_0_0_1_n_n).lhsNonContracting by decide)]
  rfl

/-- The right operand's index keeps the output's column. -/
theorem rhs_col (i : S5000x64.Idx) (k : (dot_S5000x128_S128x64_S5000x64_1_0_0_1_n_n).contr.Idx) :
    ((dot_S5000x128_S128x64_S5000x64_1_0_0_1_n_n).rhsIdx i k 1).val = (i 1).val := by
  unfold DotDims.rhsIdx
  rw [dif_neg (show ¬(1 : Fin S128x64.rank) ∈ (dot_S5000x128_S128x64_S5000x64_1_0_0_1_n_n).rhsBatch by decide),
    dif_pos (show (1 : Fin S128x64.rank) ∈ (dot_S5000x128_S128x64_S5000x64_1_0_0_1_n_n).rhsNonContracting by decide)]
  rfl

/-- One entry of a block's product: the sum over the 128 contraction coordinates (rounding the operands to bf16 is
    the identity on the extended reals, and the accumulator starts at zero). -/
theorem pay_apply (x0 : Vec Ideal S5000x128 .f32) (x1 : Vec Ideal S128x64 .f32) (p : Fin 5000) (q : Fin 64) :
    k2_pay1 x0 x1 (ix2 p q) = ∑ a : Fin 128, x0 (ix2 p a) * x1 (ix2 a q) := by
  unfold k2_pay1
  simp only [shapeCast_self]
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun a _ => ?_
  have ha := contrEquiv1_symm_val dot_S5000x128_S128x64_S5000x64_1_0_0_1_n_n 128 rfl rfl a
  have el : (dot_S5000x128_S128x64_S5000x64_1_0_0_1_n_n).lhsIdx (ix2 p q) ((contrEquiv1 dot_S5000x128_S128x64_S5000x64_1_0_0_1_n_n 128 rfl rfl).symm a) = ix2 p a :=
    funext fun d => Fin.ext (by
      match d with
      | ⟨0, _⟩ => exact lhs_row _ _
      | ⟨1, _⟩ => exact ((dot_S5000x128_S128x64_S5000x64_1_0_0_1_n_n).lhsIdx_val_of_single rfl _ _).trans ha)
  have er : (dot_S5000x128_S128x64_S5000x64_1_0_0_1_n_n).rhsIdx (ix2 p q) ((contrEquiv1 dot_S5000x128_S128x64_S5000x64_1_0_0_1_n_n 128 rfl rfl).symm a) = ix2 a q :=
    funext fun d => Fin.ext (by
      match d with
      | ⟨0, _⟩ => exact ((dot_S5000x128_S128x64_S5000x64_1_0_0_1_n_n).rhsIdx_val_of_single rfl _ _).trans ha
      | ⟨1, _⟩ => exact rhs_col _ _)
  show x0 _ * x1 _ = _
  rw [el, er]

/-- The printed index maps over the ten grid points: the input rows and the output rows move together, block `t` at
    point `t`; the weight matrix and every column axis stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of a block's product is the entry of the whole product at the array index `i` the block entry `j`
    lies at, once the block of rows holds the array's rows there and the weight block is the weight matrix. -/
theorem block_entry (x0 : Vec Ideal S5000x128 .f32) (x1 : Vec Ideal S128x64 .f32)
    (X : S50000x128.Idx → EReal) (Wt : S128x64.Idx → EReal) (j : S5000x64.Idx) (i : S50000x64.Idx)
    (h0 : ∀ a : Fin 128, x0 (ix2 (j 0) a) = X (ix2 (i 0) a))
    (h1 : ∀ a : Fin 128, x1 (ix2 a (j 1)) = Wt (ix2 a (i 1))) :
    k2_pay1 x0 x1 j = Cert.Gcn.matProd X Wt i := by
  refine (congrArg (k2_pay1 x0 x1) (eq_ix2 j)).trans ((pay_apply x0 x1 (j 0) (j 1)).trans ?_)
  unfold Cert.Gcn.matProd
  exact Finset.sum_congr rfl fun a _ => by rw [h0 a, h1 a]

variable (V : (c : Dev nD) → (b : Ref sig .tc) → Buf (Elt Ideal) ((c : Thread nD τ).loc b))

/-- What point `t` writes back is block `t` of the whole product of the two arrays the region finds. -/
theorem flushed_eq (c : Dev nD) (t : Fin cfg2.N) :
    (dat2 (F := Ideal) V c).flushed 2 t = ((cfg2.win 2).blk t).view.read (Elt Ideal) (Cert.Gcn.matProd (V c main_v47) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  refine funext fun (j : S5000x64.Idx) => ?_
  show k2_pay1 (iblk2 V c 0 t) (iblk2 V c 1 t) j = Cert.Gcn.matProd (V c main_v47) (V c main_arg4) (((cfg2.win 2).blk t).view.emb j)
  refine block_entry _ _ _ _ j _ (fun a => ?_) (fun a => ?_)
  · show V c main_v47 (((cfg2.win 0).blk t).view.emb (ix2 (j 0) a)) = V c main_v47 (ix2 ((((cfg2.win 2).blk t).view.emb j) 0) a)
    refine congrArg (V c main_v47) (funext fun d => Fin.ext ?_)
    match d with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * a.val = a.val; omega
  · show V c main_arg4 (((cfg2.win 1).blk t).view.emb (ix2 a (j 1))) = V c main_arg4 (ix2 a ((((cfg2.win 2).blk t).view.emb j) 1))
    refine congrArg (V c main_arg4) (funext fun d => Fin.ext ?_)
    match d with
    | ⟨0, _⟩ => show win2_1.index t (0 : Fin 2) * 128 + 1 * a.val = a.val; omega
    | ⟨1, _⟩ => show win2_1.index t (1 : Fin 2) * 64 + 1 * (j 1).val = win2_2.index t (1 : Fin 2) * 64 + 1 * (j 1).val; omega

/-- An index of the array lies in point `t`'s block iff each coordinate lies in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Every row of the array lies in the block of some grid point: row `r` in that of point `r / 5000`. -/
theorem cover (i : S50000x64.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 64 := (i 1).isLt
  have ht : (i 0).val / 5000 < cfg2.N := by rw [hN]; omega
  refine ⟨⟨(i 0).val / 5000, ht⟩, flush2_2 _, ?_⟩
  rw [mem_blk]
  obtain ⟨e0, e1, e2, e3, e4, e5⟩ := idx_facts ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- So the region leaves its output array at the whole product of the two arrays it finds. -/
theorem value (c : Dev nD) : (dat2 (F := Ideal) V c).arrAt 2 cfg2.N = Cert.Gcn.matProd (V c main_v47) (V c main_arg4) :=
  (dat2 V c).arrAt_eq_of_cover 2 _ (fun t _ => flushed_eq V c t) cover

end Cert.KernelIdeal.MatmulSecond

end
-- ==== Proof.BiasReluFirst.lean ====
import proofs.«126078_j67912022884450_1_alg».proof.Proof.Gen.KernelIdeal.Frame
import proofs.«126078_j67912022884450_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The first bias-and-clamp launch: from row blocks to the whole array

The launch walks a `50000 × 128` array in ten blocks of `5000` rows. At each block it adds the one-row bias to every
row and takes the maximum with zero, and writes the block back at the same rows of the result array. Here the result
array after the last block is identified with the whole-array function `Cert.Gcn.biasRelu` of the two arrays the
launch reads, whatever those arrays hold when the launch begins.

The steps: what the block computation leaves at one entry (`payload_apply`); where each window's block sits at grid
point `t` (`index_facts`: the input and the result at block row `t`, the bias always at its single block); so what
point `t` writes back is block `t` of `biasRelu` (`flushed_eq`); the ten blocks cover every row, row `r` lying in block
`r / 5000` (`cover`); hence the whole array (`value`).
-/

set_option maxRecDepth 16384

noncomputable section

namespace Cert.KernelIdeal.BiasRelu1

open Cert.KernelIdeal Cert.KernelIdeal.Gen
open Idealize.ShloMosaic Idealize.ShloMosaic.TcCoe Idealize.SL.Sem
open Idealize.ShloMosaic.ValueIdx
open Idealize.ShloMosaic.Pipeline (Dat)

/-- The offsets `(0, 0)` are the constant-zero offsets. -/
theorem zero_offsets : (![0, 0] : Fin 2 → Nat) = fun _ => 0 := funext fun a => by fin_cases a <;> rfl

/-- One entry of what the block computation leaves: the block's entry plus the bias entry of the same column, clamped
    below at zero. The two same-shape casts are identities, the row broadcast reads the bias's only row, and the
    zero word is the real number zero. -/
theorem payload_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  rw [show (Scalar.ofBits .f32 0x00000000#32 : Ideal .f32) = Ideal.ofBits .f32 0x00000000#32 from rfl,
    Ideal.ofBits_zero_f32]

/-- Where the three windows' blocks sit at grid point `t`: the input's and the result's at block row `t`, block column
    `0`; the bias's at its only block. Decided over the ten grid points. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The clamped sum depends only on the two entries read: equal indices give equal values. -/
theorem clamp_congr (A : S50000x128.Idx → EReal) (B : S1x128.Idx → EReal) {i i' : S50000x128.Idx}
    {k k' : S1x128.Idx} (hi : i = i') (hk : k = k') : max (A i + B k) 0 = max (A i' + B k') 0 := by
  rw [hi, hk]

variable (V : (c : Dev nD) → (b : Ref sig .tc) → Buf (Elt Ideal) ((c : Thread nD τ).loc b))

/-- What grid point `t` writes back is block `t` of `biasRelu` of the two arrays the launch reads. Entry `(p, q)` of the
    written block is the input block's entry `(p, q)` plus the bias block's entry `(0, q)`, clamped; the input block and
    the result block are the same rows `5000 t + p` of their arrays, and the bias block is the whole bias row. -/
theorem flushed_eq (c : Dev nD) (t : Fin cfg1.N) :
    (dat1 (F := Ideal) V c).flushed 2 t
      = ((cfg1.win 2).blk t).view.read (Elt Ideal) (Cert.Gcn.biasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_facts t
  funext j
  obtain ⟨p, q, rfl⟩ : ∃ (p : Fin 5000) (q : Fin 128), j = ix2 p q := ⟨j 0, j 1, eq_ix2 j⟩
  refine (payload_apply _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact clamp_congr (V c main_v45) (V c main_v46) h0 h1

/-- An index of the result array lies in point `t`'s block exactly when each coordinate lies in the block's range on
    its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Every index of the result array lies in the block of a point that writes back: row `r` in the block of point
    `r / 5000`, which is below `10` because `r` is below `50000`. -/
theorem cover (i : S50000x128.Idx) :
    ∃ t : Fin cfg1.N, (cfg1.win 2).flush t = true ∧ i ∈ ((cfg1.win 2).blk t).view.set := by
  have hN : grid1.N = 10 := N_1
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by show (i 0).val / 5000 < grid1.N; rw [hN]; omega⟩, rfl⟩
  refine ⟨t, flush1_2 t, ?_⟩
  rw [mem_blk]
  obtain ⟨-, -, -, -, e4, e5⟩ := index_facts t
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The result array after the last grid point is `biasRelu` of the two arrays the launch reads: every point writes
    back its block of that function, and the blocks cover the array. -/
theorem value (c : Dev nD) :
    (dat1 (F := Ideal) V c).arrAt 2 cfg1.N = Cert.Gcn.biasRelu (V c main_v45) (V c main_v46) :=
  (dat1 V c).arrAt_eq_of_cover 2 _ (fun t _ => flushed_eq V c t) cover

end Cert.KernelIdeal.BiasRelu1

end
-- ==== Proof.BiasReluSecond.lean ====
import proofs.«126078_j67912022884450_1_alg».proof.Proof.Gen.KernelIdeal.Frame
import proofs.«126078_j67912022884450_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second bias-and-clamp launch: from row blocks to the whole array

The launch walks a `50000 × 64` array in ten blocks of `5000` rows. At each block it adds the one-row bias to every
row and takes the maximum with zero, and writes the block back at the same rows of the result array. Here the result
array after the last block is identified with the whole-array function `Cert.Gcn.biasRelu` of the two arrays the
launch reads, whatever those arrays hold when the launch begins.

The steps: what the block computation leaves at one entry (`payload_apply`); where each window's block sits at grid
point `t` (`index_facts`: the input and the result at block row `t`, the bias always at its single block); so what
point `t` writes back is block `t` of `biasRelu` (`flushed_eq`); the ten blocks cover every row, row `r` lying in block
`r / 5000` (`cover`); hence the whole array (`value`).
-/

set_option maxRecDepth 16384

noncomputable section

namespace Cert.KernelIdeal.BiasRelu3

open Cert.KernelIdeal Cert.KernelIdeal.Gen
open Idealize.ShloMosaic Idealize.ShloMosaic.TcCoe Idealize.SL.Sem
open Idealize.ShloMosaic.ValueIdx
open Idealize.ShloMosaic.Pipeline (Dat)

/-- The offsets `(0, 0)` are the constant-zero offsets. -/
theorem zero_offsets : (![0, 0] : Fin 2 → Nat) = fun _ => 0 := funext fun a => by fin_cases a <;> rfl

/-- One entry of what the block computation leaves: the block's entry plus the bias entry of the same column, clamped
    below at zero. The two same-shape casts are identities, the row broadcast reads the bias's only row, and the
    zero word is the real number zero. -/
theorem payload_apply (x0 : Vec Ideal S5000x64 .f32) (x1 : Vec Ideal S1x64 .f32) (p : Fin 5000) (q : Fin 64) :
    k3_pay1 (F := Ideal) x0 x1 (ix2 p q) = max (x0 (ix2 p q) + x1 (ix2 (0 : Fin 1) q)) 0 := by
  unfold k3_pay1
  rw [maximumf_apply, addf_apply, broadcast_apply, shapeCast_self, shapeCast_self, broadcastTo_1b_ab_apply]
  rw [show (Scalar.ofBits .f32 0x00000000#32 : Ideal .f32) = Ideal.ofBits .f32 0x00000000#32 from rfl,
    Ideal.ofBits_zero_f32]

/-- Where the three windows' blocks sit at grid point `t`: the input's and the result's at block row `t`, block column
    `0`; the bias's at its only block. Decided over the ten grid points. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The clamped sum depends only on the two entries read: equal indices give equal values. -/
theorem clamp_congr (A : S50000x64.Idx → EReal) (B : S1x64.Idx → EReal) {i i' : S50000x64.Idx}
    {k k' : S1x64.Idx} (hi : i = i') (hk : k = k') : max (A i + B k) 0 = max (A i' + B k') 0 := by
  rw [hi, hk]

variable (V : (c : Dev nD) → (b : Ref sig .tc) → Buf (Elt Ideal) ((c : Thread nD τ).loc b))

/-- What grid point `t` writes back is block `t` of `biasRelu` of the two arrays the launch reads. Entry `(p, q)` of the
    written block is the input block's entry `(p, q)` plus the bias block's entry `(0, q)`, clamped; the input block and
    the result block are the same rows `5000 t + p` of their arrays, and the bias block is the whole bias row. -/
theorem flushed_eq (c : Dev nD) (t : Fin cfg3.N) :
    (dat3 (F := Ideal) V c).flushed 2 t
      = ((cfg3.win 2).blk t).view.read (Elt Ideal) (Cert.Gcn.biasRelu (V c main_v61) (V c main_v62)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  refine (payload_apply _ _ p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  exact clamp_congr (V c main_v61) (V c main_v62) h0 h1

/-- An index of the result array lies in point `t`'s block exactly when each coordinate lies in the block's range on
    its axis. -/
theorem mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v63).slice (win3_2.rect t)).set ↔ _
  rw [View.set_slice_whole, Rect.mem_set_unit]
  exact Iff.rfl

/-- Every index of the result array lies in the block of a point that writes back: row `r` in the block of point
    `r / 5000`, which is below `10` because `r` is below `50000`. -/
theorem cover (i : S50000x64.Idx) :
    ∃ t : Fin cfg3.N, (cfg3.win 2).flush t = true ∧ i ∈ ((cfg3.win 2).blk t).view.set := by
  have hN : grid3.N = 10 := N_3
  have hi0 : (i 0).val < 50000 := idx2_lt0 i
  have hi1 : (i 1).val < 64 := idx2_lt1 i
  obtain ⟨t, ht⟩ : ∃ t : Fin cfg3.N, t.val = (i 0).val / 5000 :=
    ⟨⟨(i 0).val / 5000, by show (i 0).val / 5000 < grid3.N; rw [hN]; omega⟩, rfl⟩
  refine ⟨t, flush3_2 t, ?_⟩
  rw [mem_blk]
  obtain ⟨-, -, -, -, e4, e5⟩ := index_facts t
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The result array after the last grid point is `biasRelu` of the two arrays the launch reads: every point writes
    back its block of that function, and the blocks cover the array. -/
theorem value (c : Dev nD) :
    (dat3 (F := Ideal) V c).arrAt 2 cfg3.N = Cert.Gcn.biasRelu (V c main_v61) (V c main_v62) :=
  (dat3 V c).arrAt_eq_of_cover 2 _ (fun t _ => flushed_eq V c t) cover

end Cert.KernelIdeal.BiasRelu3

end
-- ==== Proof.Network.lean ====
import proofs.«126078_j67912022884450_1_alg».proof.Proof.Stages
import proofs.«126078_j67912022884450_1_alg».proof.Proof.Spec

/-!
# The two-layer network as one function of the six argument arrays

A layer is: multiply by the weights, aggregate along the edges, add the bias row and clamp at zero. The network is
two layers over the same edge data. Both programs are shown to end with their result array at `network` of their
arguments (extended reals for the floats, machine integers for the edge list).
-/

noncomputable section

namespace Cert.Gcn

open Cert.ReferenceIdeal Cert.ReferenceIdeal.Gen Idealize.ShloMosaic

/-- The first layer: `max (A · (x · W1) + b1) 0`, with `A` the normalised aggregation along the edges `e`. -/
def layer1 (x : FVec Ideal S50000x128 .f32) (e : (⟨S2x800000, .i32⟩ : BufTy).Contents (Elt Ideal))
    (w1 : FVec Ideal S128x128 .f32) (b1 : FVec Ideal S128 .f32) : FVec Ideal S50000x128 .f32 :=
  biasRelu (aggregate128 (F := Ideal) (matProd x w1) (srcIdx e) (dstIdx e) (edgeNorm (srcIdx e) (dstIdx e))) (asRow b1)

/-- The network: the second layer `max (A · (h · W2) + b2) 0` of the first layer's output `h`. -/
def network (x : FVec Ideal S50000x128 .f32) (e : (⟨S2x800000, .i32⟩ : BufTy).Contents (Elt Ideal))
    (w1 : FVec Ideal S128x128 .f32) (b1 : FVec Ideal S128 .f32) (w2 : FVec Ideal S128x64 .f32) (b2 : FVec Ideal S64 .f32) :
    FVec Ideal S50000x64 .f32 :=
  biasRelu (aggregate64 (F := Ideal) (matProd (layer1 x e w1 b1) w2) (srcIdx e) (dstIdx e) (edgeNorm (srcIdx e) (dstIdx e))) (asRow b2)

end Cert.Gcn

end
-- ==== Proof.KernelValue.lean ====
import proofs.«126078_j67912022884450_1_alg».proof.Proof.HostStages
import proofs.«126078_j67912022884450_1_alg».proof.Proof.MatmulFirst
import proofs.«126078_j67912022884450_1_alg».proof.Proof.MatmulSecond
import proofs.«126078_j67912022884450_1_alg».proof.Proof.BiasReluFirst
import proofs.«126078_j67912022884450_1_alg».proof.Proof.BiasReluSecond
import proofs.«126078_j67912022884450_1_alg».proof.Proof.Network
import Idealize.ShloMosaic.Lib.Pipeline.Value

/-!
# The kernel program ends at the network

The buffer contents at the boundaries between the kernel program's segments, read one segment at a time from the
launch memory `m`: the first product, the first aggregate and the first bias row, the first layer, the second product,
the second aggregate and bias row, and the result. Each kernel region leaves its output array at the dense step of the
arrays it finds (`MatmulFirst`, `BiasReluFirst`, …, stated for any entry contents), each host stretch writes the
aggregate of what it finds (`HostStages`), and the edge data and the arguments reach every segment unchanged.
-/

set_option maxRecDepth 16384

noncomputable section

namespace Cert.KernelIdeal.GcnValue

open Cert.KernelIdeal Cert.KernelIdeal.Gen Cert.KernelIdeal.GcnHost
open Idealize.ShloMosaic Idealize.ShloMosaic.TcCoe Idealize.SL.Sem Idealize.ShloMosaic.ValueIdx
open Cert.Gcn

/-- A vector of `p` entries reshaped to a `1 × p` matrix is the vector stored as a row. -/
theorem reshape_row {p : Nat} (b : (⟨1, ![p]⟩ : Shape).Idx → EReal) (h : (⟨1, ![p]⟩ : Shape).ShapeCasts ⟨2, ![1, p]⟩) :
    shapeCast ⟨2, ![1, p]⟩ b h = asRow b := by
  funext y
  refine (shapeCast_addUnit_apply (n := 1) ![p] b h y).trans ?_
  unfold asRow
  exact congrArg b (funext fun a => by
    match a with
    | ⟨0, _⟩ => rfl)

variable (m : (ℓ : Loc nD τ sig) → Buf (Elt Ideal) ℓ) (ρ : Dev nD → PrngReg) (c : Dev nD)

/-- After the first region: the features times the first weight matrix. -/
theorem first_product : W4 m ρ c (Proc.devRef .tc main_v32)
    = matProd (m ((c.tc : Thread nD τ).loc main_arg0)) (m ((c.tc : Thread nD τ).loc main_arg2)) :=
  (W4_arr m ρ c 2).trans ((MatmulFirst.value (V3 m ρ) c).trans (by
    show matProd (W3 m ρ c (Proc.devRef .tc main_arg0)) (W3 m ρ c (Proc.devRef .tc main_arg2)) = _
    rw [entry_arg0, entry_arg2]))

/-- After the stretch that follows: the first layer's aggregate of that product along the edges. -/
theorem first_aggregate : W5 m ρ c (Proc.devRef .tc main_v45)
    = aggregate128 (F := Ideal) (matProd (m ((c.tc : Thread nD τ).loc main_arg0)) (m ((c.tc : Thread nD τ).loc main_arg2)))
        (srcIdx (m ((c.tc : Thread nD τ).loc main_arg1))) (dstIdx (m ((c.tc : Thread nD τ).loc main_arg1)))
        (edgeNorm (srcIdx (m ((c.tc : Thread nD τ).loc main_arg1))) (dstIdx (m ((c.tc : Thread nD τ).loc main_arg1)))) := by
  show StableHlo.after hostOps1 (W4 m ρ c) (Proc.devRef .tc main_v45) = _
  rw [ops1_agg, first_product, carry4_v5, carry4_v6, carry4_v31]

/-- … and the first bias stored as a row. -/
theorem first_bias : W5 m ρ c (Proc.devRef .tc main_v46) = asRow (m ((c.tc : Thread nD τ).loc main_arg3)) := by
  show StableHlo.after hostOps1 (W4 m ρ c) (Proc.devRef .tc main_v46) = _
  rw [ops1_bias, carry4_arg3]
  exact reshape_row _ _

/-- After the second region: the first layer. -/
theorem first_layer : W6 m ρ c (Proc.devRef .tc main_v47)
    = layer1 (m ((c.tc : Thread nD τ).loc main_arg0)) (m ((c.tc : Thread nD τ).loc main_arg1)) (m ((c.tc : Thread nD τ).loc main_arg2))
        (m ((c.tc : Thread nD τ).loc main_arg3)) :=
  (W6_arr m ρ c 2).trans ((BiasRelu1.value (V5 m ρ) c).trans (by
    show biasRelu (W5 m ρ c (Proc.devRef .tc main_v45)) (W5 m ρ c (Proc.devRef .tc main_v46)) = _
    rw [first_aggregate, first_bias]
    rfl))

/-- After the third region: the first layer times the second weight matrix. -/
theorem second_product : W7 m ρ c (Proc.devRef .tc main_v48)
    = matProd (layer1 (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) :=
  (W7_arr m ρ c 2).trans ((MatmulSecond.value (V6 m ρ) c).trans (by
    show matProd (W6 m ρ c (Proc.devRef .tc main_v47)) (W6 m ρ c (Proc.devRef .tc main_arg4)) = _
    rw [first_layer, carry6_arg4]))

/-- After the last stretch: the second layer's aggregate of that product along the same edges. -/
theorem second_aggregate : W8 m ρ c (Proc.devRef .tc main_v61)
    = aggregate64 (F := Ideal) (matProd (layer1 (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)))
        (srcIdx (m ((c.tc : Thread nD τ).loc main_arg1))) (dstIdx (m ((c.tc : Thread nD τ).loc main_arg1)))
        (edgeNorm (srcIdx (m ((c.tc : Thread nD τ).loc main_arg1))) (dstIdx (m ((c.tc : Thread nD τ).loc main_arg1)))) := by
  show StableHlo.after hostOps3 (W7 m ρ c) (Proc.devRef .tc main_v61) = _
  rw [ops3_agg, second_product, carry7_v5, carry7_v6, carry7_v31]

/-- … and the second bias stored as a row. -/
theorem second_bias : W8 m ρ c (Proc.devRef .tc main_v62) = asRow (m ((c.tc : Thread nD τ).loc main_arg5)) := by
  show StableHlo.after hostOps3 (W7 m ρ c) (Proc.devRef .tc main_v62) = _
  rw [ops3_bias, carry7_arg5]
  exact reshape_row _ _

/-- After the fourth region the result buffer holds the network of the six argument arrays. -/
theorem result : W9 m ρ c (Proc.devRef .tc main_v63)
    = network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (W9_arr m ρ c 2).trans ((BiasRelu3.value (V8 m ρ) c).trans (by
    show biasRelu (W8 m ρ c (Proc.devRef .tc main_v61)) (W8 m ρ c (Proc.devRef .tc main_v62)) = _
    rw [second_aggregate, second_bias]
    rfl))

end Cert.KernelIdeal.GcnValue

end
-- ==== Proof.RefValue.lean ====
import proofs.«126078_j67912022884450_1_alg».proof.Proof.ReferenceRun
import proofs.«126078_j67912022884450_1_alg».proof.Proof.Stages

/-!
# The reference's result is two layers

The composed term of the reference's 89 host operations is the second layer applied to the first, both over the
same edge data: a matter of naming the subterms.
-/

set_option maxRecDepth 16384

noncomputable section

namespace Cert.Gcn

open Cert.ReferenceIdeal Idealize.ShloMosaic Idealize.ShloMosaic.TcCoe Idealize.SL.Sem

variable {F : FTy → Type} [FloatOps F]

/-- The reference's result array, as the two layers of `Stages.lean` over the argument arrays. -/
theorem ref_result (m : (ℓ : Loc nD τ sig) → Buf (Elt F) ℓ) (c : Dev nD) :
    Cert.ReferenceIdeal.ValueP.res_main_v67 m c
      = refLayer64 (refLayer128 (m ((c.tc : Thread nD τ).loc main_arg0)) (m ((c.tc : Thread nD τ).loc main_arg2)) (m ((c.tc : Thread nD τ).loc main_arg3))
            (srcIdx (m ((c.tc : Thread nD τ).loc main_arg1))) (dstIdx (m ((c.tc : Thread nD τ).loc main_arg1)))
            (edgeNorm (srcIdx (m ((c.tc : Thread nD τ).loc main_arg1))) (dstIdx (m ((c.tc : Thread nD τ).loc main_arg1)))))
          (m ((c.tc : Thread nD τ).loc main_arg4)) (m ((c.tc : Thread nD τ).loc main_arg5))
          (srcIdx (m ((c.tc : Thread nD τ).loc main_arg1))) (dstIdx (m ((c.tc : Thread nD τ).loc main_arg1)))
          (edgeNorm (srcIdx (m ((c.tc : Thread nD τ).loc main_arg1))) (dstIdx (m ((c.tc : Thread nD τ).loc main_arg1)))) := by
  unfold Cert.ReferenceIdeal.ValueP.res_main_v67
  rfl

end Cert.Gcn

end
-- ==== Proof.RefDense.lean ====
import proofs.«126078_j67912022884450_1_alg».proof.Proof.Stages
import proofs.«126078_j67912022884450_1_alg».proof.Proof.Spec
import Idealize.ShloMosaic.Lib.Pipeline.Value
import Idealize.ShloMosaic.Lib.ValueIdx
import Idealize.ShloMosaic.PureOps.Ideal.Laws

/-!
# The reference's dense steps, index by index

On the extended reals the host's `dot_general` of an `n × 128` array with a `128 × p` matrix is the product
`matProd` (the sum over the one contracted axis, no accumulator), and the host's "add the bias broadcast to every
row, then the maximum with zero" is `biasRelu` of the bias stored as a row. A vector reshaped to a one-row matrix
(what the kernel program passes to its bias kernels) is the same row. So each of the reference's layers is
`biasRelu (aggregate (matProd h w) …) (asRow b)`.
-/

set_option maxRecDepth 16384

noncomputable section

open scoped BigOperators

namespace Cert.Gcn

open Cert.ReferenceIdeal Cert.ReferenceIdeal.Gen
open Idealize.ShloMosaic Idealize.ShloMosaic.ValueIdx

/-! ## The two products -/

theorem lhs_row128 (i : S50000x128.Idx) (k : (dot_S50000x128_S128x128_S50000x128_1_0_0_1_n_n).contr.Idx) :
    ((dot_S50000x128_S128x128_S50000x128_1_0_0_1_n_n).lhsIdx i k 0).val = (i 0).val := by
  unfold DotDims.lhsIdx
  rw [dif_neg (show ¬(0 : Fin S50000x128.rank) ∈ (dot_S50000x128_S128x128_S50000x128_1_0_0_1_n_n).lhsBatch by decide),
    dif_pos (show (0 : Fin S50000x128.rank) ∈ (dot_S50000x128_S128x128_S50000x128_1_0_0_1_n_n).lhsNonContracting by decide)]
  rfl

theorem rhs_col128 (i : S50000x128.Idx) (k : (dot_S50000x128_S128x128_S50000x128_1_0_0_1_n_n).contr.Idx) :
    ((dot_S50000x128_S128x128_S50000x128_1_0_0_1_n_n).rhsIdx i k 1).val = (i 1).val := by
  unfold DotDims.rhsIdx
  rw [dif_neg (show ¬(1 : Fin S128x128.rank) ∈ (dot_S50000x128_S128x128_S50000x128_1_0_0_1_n_n).rhsBatch by decide),
    dif_pos (show (1 : Fin S128x128.rank) ∈ (dot_S50000x128_S128x128_S50000x128_1_0_0_1_n_n).rhsNonContracting by decide)]
  rfl

/-- The host's product of the features with the first weight matrix is `matProd`. -/
theorem dot128_eq (x : FVec Ideal S50000x128 .f32) (w : FVec Ideal S128x128 .f32) :
    Host.dotGeneral (F := Ideal) dot_S50000x128_S128x128_S50000x128_1_0_0_1_n_n none x w = matProd x w := by
  refine funext fun (i : S50000x128.Idx) => ?_
  simp only [Host.dotGeneral]
  rw [Ideal.dotGeneral_apply, ← Equiv.sum_comp (contrEquiv1 dot_S50000x128_S128x128_S50000x128_1_0_0_1_n_n 128 rfl rfl).symm]
  unfold matProd
  refine Finset.sum_congr rfl fun a _ => ?_
  have ha := contrEquiv1_symm_val dot_S50000x128_S128x128_S50000x128_1_0_0_1_n_n 128 rfl rfl a
  have el : (dot_S50000x128_S128x128_S50000x128_1_0_0_1_n_n).lhsIdx i ((contrEquiv1 dot_S50000x128_S128x128_S50000x128_1_0_0_1_n_n 128 rfl rfl).symm a) = ix2 (i 0) a :=
    funext fun d => Fin.ext (by
      match d with
      | ⟨0, _⟩ => exact lhs_row128 _ _
      | ⟨1, _⟩ => exact ((dot_S50000x128_S128x128_S50000x128_1_0_0_1_n_n).lhsIdx_val_of_single rfl _ _).trans ha)
  have er : (dot_S50000x128_S128x128_S50000x128_1_0_0_1_n_n).rhsIdx i ((contrEquiv1 dot_S50000x128_S128x128_S50000x128_1_0_0_1_n_n 128 rfl rfl).symm a) = ix2 a (i 1) :=
    funext fun d => Fin.ext (by
      match d with
      | ⟨0, _⟩ => exact ((dot_S50000x128_S128x128_S50000x128_1_0_0_1_n_n).rhsIdx_val_of_single rfl _ _).trans ha
      | ⟨1, _⟩ => exact rhs_col128 _ _)
  rw [el, er]
  rfl

theorem lhs_row64 (i : S50000x64.Idx) (k : (dot_S50000x128_S128x64_S50000x64_1_0_0_1_n_n).contr.Idx) :
    ((dot_S50000x128_S128x64_S50000x64_1_0_0_1_n_n).lhsIdx i k 0).val = (i 0).val := by
  unfold DotDims.lhsIdx
  rw [dif_neg (show ¬(0 : Fin S50000x128.rank) ∈ (dot_S50000x128_S128x64_S50000x64_1_0_0_1_n_n).lhsBatch by decide),
    dif_pos (show (0 : Fin S50000x128.rank) ∈ (dot_S50000x128_S128x64_S50000x64_1_0_0_1_n_n).lhsNonContracting by decide)]
  rfl

theorem rhs_col64 (i : S50000x64.Idx) (k : (dot_S50000x128_S128x64_S50000x64_1_0_0_1_n_n).contr.Idx) :
    ((dot_S50000x128_S128x64_S50000x64_1_0_0_1_n_n).rhsIdx i k 1).val = (i 1).val := by
  unfold DotDims.rhsIdx
  rw [dif_neg (show ¬(1 : Fin S128x64.rank) ∈ (dot_S50000x128_S128x64_S50000x64_1_0_0_1_n_n).rhsBatch by decide),
    dif_pos (show (1 : Fin S128x64.rank) ∈ (dot_S50000x128_S128x64_S50000x64_1_0_0_1_n_n).rhsNonContracting by decide)]
  rfl

/-- The host's product of the hidden features with the second weight matrix is `matProd`. -/
theorem dot64_eq (x : FVec Ideal S50000x128 .f32) (w : FVec Ideal S128x64 .f32) :
    Host.dotGeneral (F := Ideal) dot_S50000x128_S128x64_S50000x64_1_0_0_1_n_n none x w = matProd x w := by
  refine funext fun (i : S50000x64.Idx) => ?_
  simp only [Host.dotGeneral]
  rw [Ideal.dotGeneral_apply, ← Equiv.sum_comp (contrEquiv1 dot_S50000x128_S128x64_S50000x64_1_0_0_1_n_n 128 rfl rfl).symm]
  unfold matProd
  refine Finset.sum_congr rfl fun a _ => ?_
  have ha := contrEquiv1_symm_val dot_S50000x128_S128x64_S50000x64_1_0_0_1_n_n 128 rfl rfl a
  have el : (dot_S50000x128_S128x64_S50000x64_1_0_0_1_n_n).lhsIdx i ((contrEquiv1 dot_S50000x128_S128x64_S50000x64_1_0_0_1_n_n 128 rfl rfl).symm a) = ix2 (i 0) a :=
    funext fun d => Fin.ext (by
      match d with
      | ⟨0, _⟩ => exact lhs_row64 _ _
      | ⟨1, _⟩ => exact ((dot_S50000x128_S128x64_S50000x64_1_0_0_1_n_n).lhsIdx_val_of_single rfl _ _).trans ha)
  have er : (dot_S50000x128_S128x64_S50000x64_1_0_0_1_n_n).rhsIdx i ((contrEquiv1 dot_S50000x128_S128x64_S50000x64_1_0_0_1_n_n 128 rfl rfl).symm a) = ix2 a (i 1) :=
    funext fun d => Fin.ext (by
      match d with
      | ⟨0, _⟩ => exact ((dot_S50000x128_S128x64_S50000x64_1_0_0_1_n_n).rhsIdx_val_of_single rfl _ _).trans ha
      | ⟨1, _⟩ => exact rhs_col64 _ _)
  rw [el, er]
  rfl

/-! ## The bias and the clamp -/

/-- The host's bias step on 128 columns is `biasRelu` of the bias as a row. -/
theorem biasRelu128_eq (a : FVec Ideal S50000x128 .f32) (b : FVec Ideal S128 .f32) :
    maximumf (F := Ideal) (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))
      = biasRelu a (asRow b) := by
  refine funext fun (i : S50000x128.Idx) => ?_
  rw [maximumf_apply, addf_apply]
  have h1 : broadcastInDim S50000x128 ![0, 1] bcast_S1x128_S50000x128_0_1 (broadcastInDim S1x128 ![1] bcast_S128_S1x128_1 b) i
      = asRow b (ix2 (0 : Fin 1) (i 1)) :=
    (broadcastInDim_apply _ _ _ i (ix2 (0 : Fin 1) (i 1)) (fun d => by
      match d with
      | ⟨0, _⟩ => rfl
      | ⟨1, _⟩ => rfl)).trans
    (broadcastInDim_apply _ _ b (ix2 (0 : Fin 1) (i 1)) (ix1 (i 1)) (fun d => by
      match d with
      | ⟨0, _⟩ => rfl))
  have h2 : broadcastInDim S50000x128 ![] bcast_S_S50000x128 (constant (F := Ideal) S_ .f32 0x00000000#32) i = 0 :=
    (broadcastInDim_apply _ _ _ i ix0 (fun d => d.elim0)).trans Ideal.ofBits_zero_f32
  exact congrArg₂ max (congrArg (fun z => a i + z) h1) h2

/-- The host's bias step on 64 columns is `biasRelu` of the bias as a row. -/
theorem biasRelu64_eq (a : FVec Ideal S50000x64 .f32) (b : FVec Ideal S64 .f32) :
    maximumf (F := Ideal) (addf a (broadcastInDim S50000x64 ![0, 1] bcast_S1x64_S50000x64_0_1 (broadcastInDim S1x64 ![1] bcast_S64_S1x64_1 b))) (broadcastInDim S50000x64 ![] bcast_S_S50000x64 (constant S_ .f32 0x00000000#32))
      = biasRelu a (asRow b) := by
  refine funext fun (i : S50000x64.Idx) => ?_
  rw [maximumf_apply, addf_apply]
  have h1 : broadcastInDim S50000x64 ![0, 1] bcast_S1x64_S50000x64_0_1 (broadcastInDim S1x64 ![1] bcast_S64_S1x64_1 b) i
      = asRow b (ix2 (0 : Fin 1) (i 1)) :=
    (broadcastInDim_apply _ _ _ i (ix2 (0 : Fin 1) (i 1)) (fun d => by
      match d with
      | ⟨0, _⟩ => rfl
      | ⟨1, _⟩ => rfl)).trans
    (broadcastInDim_apply _ _ b (ix2 (0 : Fin 1) (i 1)) (ix1 (i 1)) (fun d => by
      match d with
      | ⟨0, _⟩ => rfl))
  have h2 : broadcastInDim S50000x64 ![] bcast_S_S50000x64 (constant (F := Ideal) S_ .f32 0x00000000#32) i = 0 :=
    (broadcastInDim_apply _ _ _ i ix0 (fun d => d.elim0)).trans Ideal.ofBits_zero_f32
  exact congrArg₂ max (congrArg (fun z => a i + z) h1) h2

/-! ## The layers -/

/-- The reference's first layer: the product, the aggregate, the bias row and the clamp. -/
theorem refLayer128_eq (h : (⟨S50000x128, .f32⟩ : BufTy).Contents (Elt Ideal)) (w : (⟨S128x128, .f32⟩ : BufTy).Contents (Elt Ideal))
    (b : (⟨S128, .f32⟩ : BufTy).Contents (Elt Ideal)) (src dst : (⟨S850000, .i32⟩ : BufTy).Contents (Elt Ideal))
    (nrm : (⟨S850000, .f32⟩ : BufTy).Contents (Elt Ideal)) :
    refLayer128 (F := Ideal) h w b src dst nrm = biasRelu (aggregate128 (matProd h w) src dst nrm) (asRow b) := by
  unfold refLayer128
  rw [dot128_eq, biasRelu128_eq]

/-- The reference's second layer likewise. -/
theorem refLayer64_eq (h : (⟨S50000x128, .f32⟩ : BufTy).Contents (Elt Ideal)) (w : (⟨S128x64, .f32⟩ : BufTy).Contents (Elt Ideal))
    (b : (⟨S64, .f32⟩ : BufTy).Contents (Elt Ideal)) (src dst : (⟨S850000, .i32⟩ : BufTy).Contents (Elt Ideal))
    (nrm : (⟨S850000, .f32⟩ : BufTy).Contents (Elt Ideal)) :
    refLayer64 (F := Ideal) h w b src dst nrm = biasRelu (aggregate64 (matProd h w) src dst nrm) (asRow b) := by
  unfold refLayer64
  rw [dot64_eq, biasRelu64_eq]

end Cert.Gcn

end
-- ==== Proof.RefNetwork.lean ====
import proofs.«126078_j67912022884450_1_alg».proof.Proof.RefValue
import proofs.«126078_j67912022884450_1_alg».proof.Proof.RefDense
import proofs.«126078_j67912022884450_1_alg».proof.Proof.Network

/-!
# The reference ends at the network

The reference's composed term is its two layers (`RefValue.lean`), and each layer is the product, the aggregate, the
bias row and the clamp (`RefDense.lean`): the network of its six arguments.
-/

noncomputable section

namespace Cert.Gcn

open Cert.ReferenceIdeal Idealize.ShloMosaic Idealize.ShloMosaic.TcCoe Idealize.SL.Sem

/-- The reference's result array is the network of its argument arrays. -/
theorem ref_network (m : (ℓ : Loc nD τ sig) → Buf (Elt Ideal) ℓ) (c : Dev nD) :
    Cert.ReferenceIdeal.ValueP.res_main_v67 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [ref_result, refLayer64_eq, refLayer128_eq]
  rfl

end Cert.Gcn

end
-- ==== Proof.lean ====
/-
  The certificate of a two-layer graph convolution: a kernel program whose dense steps run on the TensorCore against
  a reference that computes everything on the host.

  Both programs take node features `x` (50000 × 128), an edge list (2 × 800000 node numbers), two weight matrices and
  two bias vectors. Both add a self loop to every node, count each node's degree `d`, give every edge the weight
  `d(src)^(-1/2) · d(dst)^(-1/2)`, and compute two layers `h ↦ max (A · (h · W) + b) 0`, where `A` sums, at every node,
  the weighted rows of the source nodes of the edges that end there. The gather, the scaling and the scatter-add are
  the same host operations in both programs. They differ in the dense steps: the kernel program computes `h · W` in a
  pipelined kernel, ten row blocks of 5000 with the operands rounded to bf16 on the way into the matrix unit, and
  `max (· + b) 0` in a second pipelined kernel with the bias stored as a one-row matrix; the reference calls one
  `dot_general` on the whole arrays and adds the bias broadcast to every row.

  On the extended reals a change of float format is the identity, a matrix product into a zero accumulator and the
  host's `dot_general` are the same sum over the contracted axis, and a block of rows of a product is the product of
  that block of rows. So both programs end with their result array at ONE function of the six arguments,
  `Cert.Gcn.network` (Proof/Network.lean): the kernel program because each of its four regions leaves the dense step of
  the arrays it finds and each host stretch the aggregate of what it finds (Proof/KernelValue.lean over Proof/KernelRun.lean),
  the reference because its composed term is two layers (Proof/RefNetwork.lean). No law used needs finiteness: sums are
  only re-indexed, never distributed over, so the precondition is not opened. The ideal pass rewrote nothing, so the
  idealized kernel is the kernel's own text read on the extended reals and `preserves` has no conjunct.
  The three frames: the two kernel programs' are generated whole; the reference's is its run with the result dropped.
-/
import proofs.«126078_j67912022884450_1_alg».proof.Defs
import proofs.«126078_j67912022884450_1_alg».proof.Proof.Gen.Kernel
import proofs.«126078_j67912022884450_1_alg».proof.Proof.Gen.Kernel.Skeleton
import proofs.«126078_j67912022884450_1_alg».proof.Proof.Gen.Kernel.Launch
import proofs.«126078_j67912022884450_1_alg».proof.Proof.Gen.Kernel.Points
import proofs.«126078_j67912022884450_1_alg».proof.Proof.Gen.Kernel.Frame
import proofs.«126078_j67912022884450_1_alg».proof.Proof.Gen.KernelIdeal
import proofs.«126078_j67912022884450_1_alg».proof.Proof.Gen.KernelIdeal.Skeleton
import proofs.«126078_j67912022884450_1_alg».proof.Proof.Gen.KernelIdeal.Launch
import proofs.«126078_j67912022884450_1_alg».proof.Proof.Gen.KernelIdeal.Points
import proofs.«126078_j67912022884450_1_alg».proof.Proof.Gen.KernelIdeal.Frame
import proofs.«126078_j67912022884450_1_alg».proof.Proof.Gen.ReferenceIdeal
import proofs.«126078_j67912022884450_1_alg».proof.Proof.Gen.Pre_finite_inputs
import proofs.«126078_j67912022884450_1_alg».proof.Proof.ReferenceRun
import proofs.«126078_j67912022884450_1_alg».proof.Proof.KernelRun
import proofs.«126078_j67912022884450_1_alg».proof.Proof.KernelValue
import proofs.«126078_j67912022884450_1_alg».proof.Proof.RefNetwork
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments alone: its run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-- From memories that agree on the six arguments both programs end with their result at the network of those
    arguments: the kernel program by the boundary contents read segment by segment, the reference by its composed
    term, and the two networks are of equal arguments. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnValue.result m ρ c), (h c).2⟩)
      (Cert.KernelIdeal.GcnRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.ref_network, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
